-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) (main_arg1 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S64x256x56x56 .f32 := Host.absf main_arg1
  let main_cst_0 : FVec F S_ .f32 := constant S_ .f32 0x7F800000#32
  let main_v5 : FVec F S64x256x56x56 .f32 := broadcastInDim S64x256x56x56 ![] bcast_S_S64x256x56x56 main_cst_0
  let main_v6 : IVec S64x256x56x56 1 := cmpf .olt main_v4 main_v5
  let main_c_1 : IVec S_ 1 := constantI S_ 1 1#1
  let main_v7 : IVec S_ 1 := (fun x v => Host.reduce IntOp.andi x v reducesTo_S64x256x56x56_S_d0_1_2_3 h_S_) main_v6 main_c_1
  let main_v8 : IVec S_ 1 := andi main_v3 main_v7
  main_v8
-- ==== Kernel.lean ====
abbrev S64x256x56x56 : Shape := ⟨4, ![64, 256, 56, 56]⟩
abbrev S401408x128 : Shape := ⟨2, ![401408, 128]⟩
abbrev S8192x128 : Shape := ⟨2, ![8192, 128]⟩

abbrev nBuf : Space → Nat
  | .hbm => 6
  | .vmem => 6
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S401408x128, .f32⟩
  | .hbm, ⟨3, _⟩ => ⟨S401408x128, .f32⟩
  | .hbm, ⟨4, _⟩ => ⟨S401408x128, .f32⟩
  | .hbm, ⟨5, _⟩ => ⟨S64x256x56x56, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x256x56x56_S401408x128 : S64x256x56x56.ShapeCasts S401408x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S401408x128_S64x256x56x56 : S401408x128.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S401408x128.size a
  hwx0_0 : ∀ i : grid0.Coords, EltTy.bits .f32 = 32 ∨ (Rect.block (s := S401408x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S401408x128.size a
  hwx0_1 : ∀ i : grid0.Coords, EltTy.bits .f32 = 32 ∨ (Rect.block (s := S401408x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S401408x128.size a
  hwx0_2 : ∀ i : grid0.Coords, EltTy.bits .f32 = 32 ∨ (Rect.block (s := S401408x128) S8192x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S64x256x56x56, .f32⟩
  | .hbm, ⟨2, _⟩ => ⟨S64x256x56x56, .f32⟩
  | .hbm, ⟨3, _⟩ => ⟨S_, .f32⟩
  | .hbm, ⟨4, _⟩ => ⟨S64x256x56x56, .f32⟩
  | .hbm, ⟨5, _⟩ => ⟨S64x256x56x56, .i1⟩
  | .hbm, ⟨6, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S64x256x56x56 : S_.BroadcastsInDim S64x256x56x56 (![] : Fin 0 → Fin S64x256x56x56.rank)

variable [Facts₀]

class Facts : Prop extends Facts₀ where

variable [Facts]
-- ==== Proof.Quantize.lean ====
/-
  The mathematics both programs compute, stated once over the extended reals.

  One element: given a value `x` and a noise sample `n`, the result is `x` rounded to the nearest integer
  (ties to the even one; the infinities stay) when `n < 1/2`, and `x` itself otherwise. A whole array is
  that function applied index by index. Because nothing mixes two indices, re-laying the arrays (the same
  elements in row-major order under another shape) commutes with it; going to another shape, applying it there,
  and coming back is applying it directly.
-/
import Idealize.ShloMosaic.PureOps.Ideal
import Idealize.ShloMosaic.Lib.Pipeline.Value

noncomputable section

namespace Cert.Quantize

open Idealize.ShloMosaic

/-- One element: `round x` when the noise sample is below one half (the word `0x3F000000` is the float 0.5), else `x`. -/
def quantElt (x n : Ideal .f32) : Ideal .f32 :=
  Scalar.select (FloatOps.cmpf .olt n (FloatOps.ofBits .f32 0x3F000000#32)) (FloatOps.roundeven x) x

/-- A whole array, index by index. -/
def quant {s : Shape} (x n : FVec Ideal s .f32) : FVec Ideal s .f32 := fun i => quantElt (x i) (n i)

theorem quant_apply {s : Shape} (x n : FVec Ideal s .f32) (i : s.Idx) : quant x n i = quantElt (x i) (n i) := rfl

/-- Re-laying both operands and then applying the function is applying it and then re-laying the result:
    element `j` of either side is the function of the operands' elements at the one source index `j` comes from. -/
theorem quant_shapeCast {s t : Shape} (x n : FVec Ideal s .f32) (h : s.ShapeCasts t) :
    quant (shapeCast t x h) (shapeCast t n h) = shapeCast t (quant x n) h := rfl

/-- There and back: re-lay, apply, re-lay back, is the function itself. -/
theorem quant_there_and_back {s t : Shape} (x n : FVec Ideal s .f32) (h : s.ShapeCasts t) (h' : t.ShapeCasts s) :
    shapeCast s (quant (shapeCast t x h) (shapeCast t n h)) h' = quant x n := by
  rw [quant_shapeCast, shapeCast_shapeCast]

end Cert.Quantize

end
-- ==== Proof.RefValue.lean ====
/-
  The reference computes the quantization function directly on the 4-d arrays: it rounds `x` (the host's
  round-to-nearest-even, which on the extended reals is the same function as the kernel's), compares the noise
  with the constant one half broadcast to the arrays' shape, and selects. Read at an index `i` each of its five
  operations touches only element `i` of its operands, so its result at `i` is the element function of `x i`
  and `noise i`.
-/
import proofs.«112106_j24816321036973_2_alg».proof.Proof.Gen.ReferenceIdeal.Run
import proofs.«112106_j24816321036973_2_alg».proof.Proof.Gen.ReferenceIdeal.Read
import proofs.«112106_j24816321036973_2_alg».proof.Proof.Quantize

noncomputable section

namespace Cert.ReferenceIdeal.QuantRef

open Idealize.ShloMosaic Cert.ReferenceIdeal Cert.Quantize

/-- The reference's last stage is the quantization function of its two arguments, index by index: the select at `i`
    of the comparison at `i` (noise against the broadcast constant, which at every index is the one scalar), the
    rounded `x` at `i`, and `x` at `i`. -/
theorem stage_eq (x0 x1 : FVec Ideal S64x256x56x56 .f32) :
    Read.val_main_v3 (F := Ideal) x0 x1 = quant x0 x1 := by
  funext i
  rw [Read.val_main_v3_apply, Read.val_main_v2_apply, Read.val_main_v0_apply, Read.val_main_v1_apply,
    Read.val_main_cst_apply]
  rfl

end Cert.ReferenceIdeal.QuantRef

end
-- ==== Proof.KernelBlock.lean ====
/-
  One grid point of the kernel. The two inputs, re-laid as 401408 rows of 128 lanes, are cut into 49 blocks of 8192
  rows; at point `t` the body loads block `t` of each, computes on the whole block at once, and stores the whole
  result block, which is written back as block `t` of the output. The body's arithmetic is the quantization
  function of its two loaded blocks (the two shape casts in it are between equal shapes, so they do nothing). All
  three windows are at the same block index at every point, so element `j` of the block written back is the element
  function of the two input arrays at the one array index that `j` sits at: block `t` of the quantization of the
  whole re-laid arrays.
-/
import proofs.«112106_j24816321036973_2_alg».proof.Proof.Gen.KernelIdeal.Frame
import proofs.«112106_j24816321036973_2_alg».proof.Proof.Quantize

set_option maxRecDepth 16384

noncomputable section

namespace Cert.KernelIdeal.QuantValue

open Idealize.ShloMosaic Idealize.ShloMosaic.TcCoe Idealize.SL.Sem
open Cert.KernelIdeal Cert.KernelIdeal.Gen Cert.Quantize

variable (m : (ℓ : Loc nD τ sig) → Buf (Elt Ideal) ℓ)

/-- The body's loads and its store are at offset zero on both axes. -/
theorem zero_offsets : (![0, 0] : Fin 2 → Nat) = fun _ => 0 := funext fun a => by fin_cases a <;> rfl

/-- The body's arithmetic on its two loaded blocks is the quantization function of them. -/
theorem payload_eq (x0 x1 : Vec Ideal S8192x128 .f32) : k0_pay1 (F := Ideal) x0 x1 = quant x0 x1 := by
  unfold k0_pay1
  simp only [shapeCast_self]
  rfl

/-- At every grid point the two input windows are at the output window's block index, on both axes; the output's
    row-block index is below 49 and its lane-block index is zero. -/
theorem index_facts : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 48 ∧ win0_2.index t (1 : Fin 2) = 0 :=
  (by decide +kernel : ∀ t : Fin grid0.N, _)

/-- Every one of the 49 row blocks is some grid point's. -/
theorem index_onto : ∀ q : Fin 49, ∃ t : Fin cfg0.N, win0_2.index t = ![q.val, 0] :=
  (by decide +kernel : ∀ q : Fin 49, ∃ t : Fin grid0.N, win0_2.index t = ![q.val, 0])

/-- What point `t` writes back is block `t` of the quantization of the two re-laid arrays as the region finds them. -/
theorem flushed_eq (c : Dev nD) (t : Fin cfg0.N) :
    (dats m 0 c).flushed 2 t
      = ((cfg0.win 2).blk t).view.read (Elt Ideal) (quant (V m c main_v0) (V m c main_v1)) := by
  show (cfg0.win 2).cut (grid0.coords t) ((dats m 0 c).after 2 t) = _
  rw [after0_2]
  unfold out0_2
  rw [View.canon_unit_zero zero_offsets]
  simp only [View.ld_unit_zero (S := S8192x128) zero_offsets]
  rw [payload_eq]
  obtain ⟨e0, e1, e2, e3, -, -⟩ := index_facts t
  funext j
  show quantElt (V m c main_v0 (((cfg0.win 0).blk t).view.emb j)) (V m c main_v1 (((cfg0.win 1).blk t).view.emb j))
    = quantElt (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

end Cert.KernelIdeal.QuantValue

end
-- ==== Proof.KernelArray.lean ====
/-
  From the blocks to the kernel's result. The 49 blocks of 8192 rows tile the 401408 rows of the output, every grid
  point writes its block back, and each block written is the corresponding block of one whole-array function (the
  quantization of the two re-laid inputs), so after the region the output array IS that function: the row `r` is in
  the block of the point whose block index is `r / 8192`. Before the region the program only re-lays its two
  arguments from 64x256x56x56 to 401408x128; after it, it only re-lays the output back. So the program's result is the
  quantization applied between a re-laying and its inverse, which is the quantization of the arguments themselves.
-/
import proofs.«112106_j24816321036973_2_alg».proof.Proof.KernelBlock
import Idealize.ShloMosaic.Lib.Pipeline.Value
import Idealize.ShloMosaic.Lib.StableHlo.Run

set_option maxRecDepth 16384

noncomputable section

namespace Cert.KernelIdeal.QuantValue

open Idealize.ShloMosaic Idealize.ShloMosaic.TcCoe Idealize.SL.Sem Idealize.ShloMosaic.StableHlo
open Cert.KernelIdeal Cert.KernelIdeal.Gen Cert.Quantize

variable (m : (ℓ : Loc nD τ sig) → Buf (Elt Ideal) ℓ) (ρ : Dev nD → PrngReg)

/-- An index of the output array is in point `t`'s block iff each coordinate lies in the block's range on its axis. -/
theorem mem_block (t : Fin cfg0.N) (i : S401408x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v2).slice (win0_2.rect t)).set ↔ _
  rw [View.set_slice_whole, Rect.mem_set_unit]
  exact Iff.rfl

/-- Every index of the output array is in the block some grid point writes back: row `r` in row block `r / 8192`. -/
theorem covered (i : S401408x128.Idx) :
    ∃ t : Fin cfg0.N, (cfg0.win 2).flush t = true ∧ i ∈ ((cfg0.win 2).blk t).view.set := by
  have hi0 : (i 0).val < 401408 := (i 0).isLt
  have hi1 : (i 1).val < 128 := (i 1).isLt
  obtain ⟨t, ht⟩ := index_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- The output array after the region is the quantization of the two re-laid arrays as the region finds them. -/
theorem region_array (c : Dev nD) :
    (dats m 0 c).arrAt 2 cfg0.N = quant (V m c main_v0) (V m c main_v1) :=
  (dats m 0 c).arrAt_eq_of_cover 2 _ (fun t _ => flushed_eq m c t) covered

/-- The region finds its first operand at the first argument re-laid as 401408 rows of 128 lanes. -/
theorem entry_x (c : Dev nD) :
    (V m c main_v0 : S401408x128.Idx → EReal)
      = shapeCast S401408x128 (m ((c : Thread nD τ).loc main_arg0)) shapeCasts_S64x256x56x56_S401408x128 := by
  show StableHlo.after hostOps0 (fun b => m (c, b)) (Proc.devRef .tc main_v0) = _
  after_results
  rfl

/-- The region finds its second operand at the second argument re-laid the same way. -/
theorem entry_noise (c : Dev nD) :
    (V m c main_v1 : S401408x128.Idx → EReal)
      = shapeCast S401408x128 (m ((c : Thread nD τ).loc main_arg1)) shapeCasts_S64x256x56x56_S401408x128 := by
  show StableHlo.after hostOps0 (fun b => m (c, b)) (Proc.devRef .tc main_v1) = _
  after_results
  rfl

end Cert.KernelIdeal.QuantValue

end
-- ==== Proof.KernelRun.lean ====
/-
  The kernel program's run, read as a value. Every weakly fair execution terminates, and at the end the result array
  is the quantization of the two arguments and the arguments are as launched. The result buffer is written by the one
  host operation after the region, which re-lays the region's output array from 401408x128 back to 64x256x56x56; the
  region's output array is the quantization of the re-laid arguments; and quantizing between a re-laying and its
  inverse is quantizing directly.
-/
import proofs.«112106_j24816321036973_2_alg».proof.Proof.KernelArray

set_option maxRecDepth 16384

noncomputable section

namespace Cert.KernelIdeal.QuantValue

open Idealize.ShloMosaic Idealize.ShloMosaic.TcCoe Idealize.SL.Sem Idealize.ShloMosaic.StableHlo
open Cert.KernelIdeal Cert.KernelIdeal.Gen Cert.Quantize

variable (m : (ℓ : Loc nD τ sig) → Buf (Elt Ideal) ℓ) (ρ : Dev nD → PrngReg)

/-- The result buffer after the host operation that follows the region: the region's output array re-laid back to
    the arguments' shape. -/
theorem result_array (c : Dev nD) :
    (Pipeline.afterTail₀ cfgs (dats m) 0 (V0 m) [hostOps1] c main_v3 : S64x256x56x56.Idx → EReal)
      = shapeCast S64x256x56x56 ((dats m 0 c).arrAt 2 cfg0.N) shapeCasts_S401408x128_S64x256x56x56 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = (dats m 0 c).arrAt 2 cfg0.N :=
    Pipeline.withArrays_arr spec0 launch0.win.arr_inj c _ _ 2
  rw [e]
  rfl

/-- The result buffer is the quantization of the two arguments as launched. -/
theorem result_eq (c : Dev nD) :
    (Pipeline.afterTail₀ cfgs (dats m) 0 (V0 m) [hostOps1] c main_v3 : S64x256x56x56.Idx → EReal)
      = quant (m ((c : Thread nD τ).loc main_arg0)) (m ((c : Thread nD τ).loc main_arg1)) := by
  rw [result_array, region_array, entry_x, entry_noise]
  exact quant_there_and_back _ _ _ _

/-- The run: it terminates without a fault, the result is the quantization of the arguments, the arguments are unchanged. -/
theorem run : θ_run defs (onTc (τ := τ) (main (F := Ideal))) ⟨m, fun _ => 0, ρ⟩ fun r => ∀ c : Dev nD,
      r.2.mem ((c : Thread nD τ).loc main_v3)
        = quant (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.QuantValue

end
-- ==== Proof.lean ====
/-
  The kernel and its reference compute one function on the extended reals.

  Both take `x` and `noise`, two arrays of shape 64x256x56x56, and return, element by element, `x` rounded to the
  nearest integer (ties to even) where `noise < 1/2` and `x` elsewhere. The reference does so directly. The kernel
  re-lays both arrays as 401408 rows of 128 lanes, cuts them into 49 blocks of 8192 rows, applies the same element
  function to each block, writes each block back, and re-lays the result to the original shape. The element function
  never mixes two indices, so it commutes with the re-laying and with the cutting into blocks, and the two results
  agree at every index; the rounding of the kernel and the rounding of the host are the same function on the extended
  reals, and the one constant (one half) is the same word on both sides. Nothing here uses that the inputs are finite:
  the equality holds at the infinities too.

  The three frame claims are each program's run with the result forgotten; the kernel was idealized with no rewrite,
  so the claim that the idealization is sanctioned has nothing to state.
-/
import proofs.«112106_j24816321036973_2_alg».proof.Defs
import proofs.«112106_j24816321036973_2_alg».proof.Proof.Gen.Kernel
import proofs.«112106_j24816321036973_2_alg».proof.Proof.Gen.Kernel.Frame
import proofs.«112106_j24816321036973_2_alg».proof.Proof.Gen.KernelIdeal
import proofs.«112106_j24816321036973_2_alg».proof.Proof.Gen.KernelIdeal.Frame
import proofs.«112106_j24816321036973_2_alg».proof.Proof.Gen.ReferenceIdeal
import proofs.«112106_j24816321036973_2_alg».proof.Proof.Gen.ReferenceIdeal.Run
import proofs.«112106_j24816321036973_2_alg».proof.Proof.Gen.ReferenceIdeal.Read
import proofs.«112106_j24816321036973_2_alg».proof.Proof.Gen.Pre_finite_inputs
import proofs.«112106_j24816321036973_2_alg».proof.Proof.RefValue
import proofs.«112106_j24816321036973_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the result at the quantization of the
    arguments: the kernel by its run read through the blocks and the two re-layings, the reference by its run read
    one operation at a time. -/
theorem algebraic : Cert.algebraic_KernelIdeal_ReferenceIdeal := by
  intro m ρ m' ρ' _ hagree
  refine ⟨fun c => Cert.Quantize.quant (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.QuantValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.QuantRef.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
